-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S1250000 32) (main_arg2 : IVec S1250000 32) (main_arg3 : FVec F S64x64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩
abbrev S10000x1 : Shape := ⟨2, ![10000, 1]⟩

abbrev nBuf : Space → Nat
  | .hbm => 28
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S_, .f32⟩
  | .hbm, ⟨16, _⟩ => ⟨S100000x64, .f32⟩
  | .hbm, ⟨17, _⟩ => ⟨S1250000x1, .i32⟩
  | .hbm, ⟨18, _⟩ => ⟨S100000x64, .f32⟩
  | .hbm, ⟨19, _⟩ => ⟨S_, .f32⟩
  | .hbm, ⟨20, _⟩ => ⟨S1250000, .f32⟩
  | .hbm, ⟨21, _⟩ => ⟨S_, .f32⟩
  | .hbm, ⟨22, _⟩ => ⟨S100000, .f32⟩
  | .hbm, ⟨23, _⟩ => ⟨S1250000x1, .i32⟩
  | .hbm, ⟨24, _⟩ => ⟨S100000, .f32⟩
  | .hbm, ⟨25, _⟩ => ⟨S100000x1, .f32⟩
  | .hbm, ⟨26, _⟩ => ⟨S1x64, .f32⟩
  | .hbm, ⟨27, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 39
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S_, .f32⟩
  | .hbm, ⟨16, _⟩ => ⟨S100000x64, .f32⟩
  | .hbm, ⟨17, _⟩ => ⟨S1250000x1, .i32⟩
  | .hbm, ⟨18, _⟩ => ⟨S100000x64, .f32⟩
  | .hbm, ⟨19, _⟩ => ⟨S_, .f32⟩
  | .hbm, ⟨20, _⟩ => ⟨S1250000, .f32⟩
  | .hbm, ⟨21, _⟩ => ⟨S_, .f32⟩
  | .hbm, ⟨22, _⟩ => ⟨S100000, .f32⟩
  | .hbm, ⟨23, _⟩ => ⟨S1250000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S64x64, .f32⟩
  | .hbm, ⟨32, _⟩ => ⟨S100000x64, .f32⟩
  | .hbm, ⟨33, _⟩ => ⟨S64x64, .f32⟩
  | .hbm, ⟨34, _⟩ => ⟨S100000x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.Spec.lean ====
/-
  One graph-convolution layer with mean aggregation, as a function of its arrays, entry by entry.

  The arrays: the node features x (100000 rows of 64), the neighbours' feature sums agg (the same shape), each node's
  in-degree dg, the two 64 by 64 weight matrices ws and wn, and the bias bb. The entry at node p and output feature q is

      ( Σ_k x(p, k) · ws(q, k)  +  Σ_k (agg(p, k) / max(dg(p), 1)) · wn(q, k) )  +  bb(q):

  the node's own features against row q of ws, plus the mean of its neighbours' features against row q of wn (the
  degree is raised to 1 first, so an isolated node divides by 1), plus the bias. The quotient is the exact quotient of
  extended reals and 1 is the value of the f32 word of 1.0. The degree and the bias enter as plain functions of the
  node and of the feature, so that a column, a row or a vector holding them can each be read into the same term.
-/
import Idealize.ShloMosaic.PureOps.Ideal
import Idealize.ShloMosaic.Lib.ValueIdx

noncomputable section

namespace Cert.Sage

open Idealize.ShloMosaic Idealize.ShloMosaic.ValueIdx

/-- The value of the f32 word of 1.0, below which a degree is not allowed to fall. -/
abbrev oneWord : EReal := Ideal.ofBits .f32 0x3F800000#32

/-- The layer's entry at node p and output feature q. -/
def entry (x agg : (⟨2, ![100000, 64]⟩ : Shape).Idx → EReal) (dg : Fin 100000 → EReal)
    (ws wn : (⟨2, ![64, 64]⟩ : Shape).Idx → EReal) (bb : Fin 64 → EReal) (p : Fin 100000) (q : Fin 64) : EReal :=
  (∑ k : Fin 64, x (ix2 p k) * ws (ix2 q k)
    + ∑ k : Fin 64, Ideal.div (agg (ix2 p k)) (max (dg p) oneWord) * wn (ix2 q k))
  + bb q

/-- The layer's whole result array: at an index, the entry at the index's two coordinates. -/
def layer (x agg : (⟨2, ![100000, 64]⟩ : Shape).Idx → EReal) (dg : Fin 100000 → EReal)
    (ws wn : (⟨2, ![64, 64]⟩ : Shape).Idx → EReal) (bb : Fin 64 → EReal) : (⟨2, ![100000, 64]⟩ : Shape).Idx → EReal :=
  fun i => entry x agg dg ws wn bb ⟨(i 0).val, (i 0).isLt⟩ ⟨(i 1).val, (i 1).isLt⟩

theorem layer_apply (x agg : (⟨2, ![100000, 64]⟩ : Shape).Idx → EReal) (dg : Fin 100000 → EReal)
    (ws wn : (⟨2, ![64, 64]⟩ : Shape).Idx → EReal) (bb : Fin 64 → EReal) (p : Fin 100000) (q : Fin 64) :
    layer x agg dg ws wn bb (ix2 p q) = entry x agg dg ws wn bb p q := rfl

end Cert.Sage

end
-- ==== Proof.Body.lean ====
/-
  What the kernel's body computes for one block of 10000 nodes, read at a row r of the block and an output feature q.

  The body divides the block of neighbour sums, entry by entry, by the block's degree column raised to 1 and spread
  along the rows; transposes each weight matrix; multiplies the block of node features by the first transposed matrix
  and the block of means by the second, each into a zero accumulator; adds the two products; and adds the bias row
  spread down the block. A change of float format is the identity at exact arithmetic, a product into a zero accumulator is
  the plain sum over the contracted coordinate, and the transposed matrix at (k, q) is the matrix at (q, k). So the
  entry at (r, q) is

      ( Σ_k x(r, k) · ws(q, k)  +  Σ_k (agg(r, k) / max(deg(r, 0), 1)) · wn(q, k) )  +  b(0, q).
-/
import proofs.«135539_j64226940944915_2_alg».proof.Proof.Gen.KernelIdeal.Skeleton
import proofs.«135539_j64226940944915_2_alg».proof.Proof.LibDense
import proofs.«135539_j64226940944915_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.LibDense

/-! ## The matrix product's index maps: rows from the output's row, columns from its column, the rest contracted -/

theorem dot_l0 (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem dot_l1 (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c

theorem dot_r0 (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c

theorem dot_r1 (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-! ## The body's result as one term of its six loaded blocks -/

variable {F : FTy → Type} [FloatOps F]

/-- The stored value, written out: the two products into zero accumulators, added, plus the bias row spread down. The
    blocks are, in the body's order of loading: the neighbour sums, the degree column, the node features, the two
    weight matrices, the bias row. -/
theorem pay_eq (sums : Vec F S10000x64 .f32) (degc : Vec F S10000x1 .f32) (feat : Vec F S10000x64 .f32)
    (ws wn : Vec F S64x64 .f32) (brow : Vec F S1x64 .f32) :
    k0_pay1 sums degc feat ws wn brow
      = addf
          (addf
            (matmul dot_S10000x64_S64x64_S10000x64_1_0_0_1_n_n none (truncf .bf16 feat bitsLt_bf16_f32)
              (transpose S64x64 [1, 0] (truncf .bf16 ws bitsLt_bf16_f32) transposes_S64x64_p1_0_S64x64)
              (constant S10000x64 .f32 0x00000000#32))
            (matmul dot_S10000x64_S64x64_S10000x64_1_0_0_1_n_n none
              (truncf .bf16
                (divf (shapeCast S10000x64 sums shapeCasts_S10000x64_S10000x64)
                  (broadcastTo S10000x64
                    (maximumf (shapeCast S10000x1 degc shapeCasts_S10000x1_S10000x1)
                      (broadcast S10000x1 (Scalar.ofBits .f32 0x3F800000#32)))
                    broadcasts_S10000x1_S10000x64))
                bitsLt_bf16_f32)
              (transpose S64x64 [1, 0] (truncf .bf16 wn bitsLt_bf16_f32) transposes_S64x64_p1_0_S64x64)
              (constant S10000x64 .f32 0x00000000#32)))
          (broadcastTo S10000x64 (shapeCast S1x64 brow shapeCasts_S1x64_S1x64) broadcasts_S1x64_S10000x64) := rfl

/-! ## Read at a row and a column, at exact arithmetic -/

/-- The body's stored value at row r and output feature q of the block. -/
theorem pay_rc (sums : Vec Ideal S10000x64 .f32) (degc : Vec Ideal S10000x1 .f32) (feat : Vec Ideal S10000x64 .f32)
    (ws wn : Vec Ideal S64x64 .f32) (brow : Vec Ideal S1x64 .f32) (r : Fin 10000) (q : Fin 64) :
    k0_pay1 (F := Ideal) sums degc feat ws wn brow (ix2 r q)
      = (∑ k : Fin 64, feat (ix2 r k) * ws (ix2 q k)
          + ∑ k : Fin 64, Ideal.div (sums (ix2 r k)) (max (degc (ix2 r (0 : Fin 1))) Sage.oneWord) * wn (ix2 q k))
        + brow (ix2 (0 : Fin 1) q) := by
  rw [pay_eq, addf_apply, addf_apply,
    matmul_zero_rc dot_S10000x64_S64x64_S10000x64_1_0_0_1_n_n rfl rfl dot_l0 dot_l1 dot_r0 dot_r1,
    matmul_zero_rc dot_S10000x64_S64x64_S10000x64_1_0_0_1_n_n rfl rfl dot_l0 dot_l1 dot_r0 dot_r1,
    broadcastTo_1b_ab_apply]
  simp only [shapeCast_self]
  congr 1
  congr 1
  · refine Finset.sum_congr rfl fun k _ => ?_
    rw [truncf_apply, transpose_ix2_apply, truncf_apply]
  · refine Finset.sum_congr rfl fun k _ => ?_
    rw [truncf_apply, divf_apply, broadcastTo_a1_ab_apply, maximumf_apply, broadcast_apply, transpose_ix2_apply,
      truncf_apply]
    rfl

/-- The same at any index of the block, by its two coordinates. -/
theorem pay_at (sums : Vec Ideal S10000x64 .f32) (degc : Vec Ideal S10000x1 .f32) (feat : Vec Ideal S10000x64 .f32)
    (ws wn : Vec Ideal S64x64 .f32) (brow : Vec Ideal S1x64 .f32) (j : S10000x64.Idx) :
    k0_pay1 (F := Ideal) sums degc feat ws wn brow j
      = (∑ k : Fin 64, feat (ix2 (j 0) k) * ws (ix2 (j 1) k)
          + ∑ k : Fin 64, Ideal.div (sums (ix2 (j 0) k)) (max (degc (ix2 (j 0) (0 : Fin 1))) Sage.oneWord) * wn (ix2 (j 1) k))
        + brow (ix2 (0 : Fin 1) (j 1)) := by
  obtain ⟨r, q, rfl⟩ : ∃ (r : Fin 10000) (q : Fin 64), j = ix2 r q := ⟨j 0, j 1, eq_ix2 j⟩
  exact pay_rc sums degc feat ws wn brow r q

end Cert.KernelIdeal.Body

end
-- ==== Proof.Blocks.lean ====
/-
  From the blocks to the whole array: after the kernel's run the result array is the layer function of the arrays the
  region finds.

  The grid has ten points. Point t stages rows 10000·t … 10000·t + 9999 of the node features, of the neighbour sums and
  of the degree column, the whole of each weight matrix and the whole bias row, and writes back rows 10000·t …
  10000·t + 9999 of the result. A block's coordinate inside its array is always (block index) × (block size) + (the
  coordinate inside the block), so entry (r, q) of what point t writes back is the layer's entry at node 10000·t + r
  and feature q. The ten row blocks tile the array: row p lies in the block of point p / 10000. Hence the array ends
  holding the layer function at every index.
-/
import proofs.«135539_j64226940944915_2_alg».proof.Proof.Gen.KernelIdeal.Value
import proofs.«135539_j64226940944915_2_alg».proof.Proof.Body
import proofs.«135539_j64226940944915_2_alg».proof.Proof.Spec
import Idealize.ShloMosaic.Lib.Pipeline.Value
import Idealize.ShloMosaic.Lib.ValueIdx
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every access of the body starts at the origin of its block. -/
theorem zero_off : (![0, 0] : Fin 2 → Nat) = fun _ => 0 := funext fun a => by fin_cases a <;> rfl

/-- The block index of each window at point t, decided over the ten points: the three row-blocked inputs and the
    output are at row block t, the weight matrices and the bias row at their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block read inside the array its window stages -/

/-- Row r of point t's block of node features is row 10000·t + r of the node features. Stated for any array in the window's place. -/
theorem read_win0 (t : Fin cfg0.N) (Z : S100000x64.Idx → Elt Ideal .f32) (y : S10000x64.Idx) (i : S100000x64.Idx)
    (h0 : (i 0).val = 10000 * t.val + (y 0).val) (h1 : (i 1).val = (y 1).val) :
    ((cfg0.win 0).blk t).view.read (Elt Ideal) Z y = Z i := by
  have hidx : ((cfg0.win 0).blk t).view.emb y = i := by
    obtain ⟨e0, e1, -, -, -, -, -, -, -, -, -, -, -, -⟩ := block_index t
    funext a
    apply Fin.ext
    match a with
    | ⟨0, _⟩ => show win0_0.index t 0 * 10000 + 1 * (y 0).val = (i 0).val; rw [e0, h0]; clear e0 e1; omega
    | ⟨1, _⟩ => show win0_0.index t 1 * 64 + 1 * (y 1).val = (i 1).val; rw [e1, h1]; clear e0 e1; omega
  rw [View.read_apply, hidx]
  rfl

/-- The same for the array the region finds there, under a name. -/
theorem feat_block (c : Dev nD) (t : Fin cfg0.N) (X : S100000x64.Idx → Elt Ideal .f32)
    (hX : (V m c (Pipeline.arrRef spec0 0) : S100000x64.Idx → Elt Ideal .f32) = X) (y : S10000x64.Idx) (i : S100000x64.Idx)
    (h0 : (i 0).val = 10000 * t.val + (y 0).val) (h1 : (i 1).val = (y 1).val) :
    (iblk m c 0 t : Vec Ideal S10000x64 .f32) y = X i := by
  subst hX
  exact read_win0 t (V m c (Pipeline.arrRef spec0 0)) y i h0 h1

/-- Row r of point t's block of neighbour sums is row 10000·t + r of the neighbour sums. Stated for any array in the window's place. -/
theorem read_win1 (t : Fin cfg0.N) (Z : S100000x64.Idx → Elt Ideal .f32) (y : S10000x64.Idx) (i : S100000x64.Idx)
    (h0 : (i 0).val = 10000 * t.val + (y 0).val) (h1 : (i 1).val = (y 1).val) :
    ((cfg0.win 1).blk t).view.read (Elt Ideal) Z y = Z i := by
  have hidx : ((cfg0.win 1).blk t).view.emb y = i := by
    obtain ⟨-, -, e0, e1, -, -, -, -, -, -, -, -, -, -⟩ := block_index t
    funext a
    apply Fin.ext
    match a with
    | ⟨0, _⟩ => show win0_1.index t 0 * 10000 + 1 * (y 0).val = (i 0).val; rw [e0, h0]; clear e0 e1; omega
    | ⟨1, _⟩ => show win0_1.index t 1 * 64 + 1 * (y 1).val = (i 1).val; rw [e1, h1]; clear e0 e1; omega
  rw [View.read_apply, hidx]
  rfl

/-- The same for the array the region finds there, under a name. -/
theorem sums_block (c : Dev nD) (t : Fin cfg0.N) (X : S100000x64.Idx → Elt Ideal .f32)
    (hX : (V m c (Pipeline.arrRef spec0 1) : S100000x64.Idx → Elt Ideal .f32) = X) (y : S10000x64.Idx) (i : S100000x64.Idx)
    (h0 : (i 0).val = 10000 * t.val + (y 0).val) (h1 : (i 1).val = (y 1).val) :
    (iblk m c 1 t : Vec Ideal S10000x64 .f32) y = X i := by
  subst hX
  exact read_win1 t (V m c (Pipeline.arrRef spec0 1)) y i h0 h1

/-- Row r of point t's block of the degree column is row 10000·t + r of the degree column. Stated for any array in the window's place. -/
theorem read_win2 (t : Fin cfg0.N) (Z : S100000x1.Idx → Elt Ideal .f32) (y : S10000x1.Idx) (i : S100000x1.Idx)
    (h0 : (i 0).val = 10000 * t.val + (y 0).val) (h1 : (i 1).val = (y 1).val) :
    ((cfg0.win 2).blk t).view.read (Elt Ideal) Z y = Z i := by
  have hidx : ((cfg0.win 2).blk t).view.emb y = i := by
    obtain ⟨-, -, -, -, e0, e1, -, -, -, -, -, -, -, -⟩ := block_index t
    funext a
    apply Fin.ext
    match a with
    | ⟨0, _⟩ => show win0_2.index t 0 * 10000 + 1 * (y 0).val = (i 0).val; rw [e0, h0]; clear e0 e1; omega
    | ⟨1, _⟩ => show win0_2.index t 1 * 1 + 1 * (y 1).val = (i 1).val; rw [e1, h1]; clear e0 e1; omega
  rw [View.read_apply, hidx]
  rfl

/-- The same for the array the region finds there, under a name. -/
theorem degc_block (c : Dev nD) (t : Fin cfg0.N) (X : S100000x1.Idx → Elt Ideal .f32)
    (hX : (V m c (Pipeline.arrRef spec0 2) : S100000x1.Idx → Elt Ideal .f32) = X) (y : S10000x1.Idx) (i : S100000x1.Idx)
    (h0 : (i 0).val = 10000 * t.val + (y 0).val) (h1 : (i 1).val = (y 1).val) :
    (iblk m c 2 t : Vec Ideal S10000x1 .f32) y = X i := by
  subst hX
  exact read_win2 t (V m c (Pipeline.arrRef spec0 2)) y i h0 h1

/-- The first weight matrix is staged whole at every point. Stated for any array in the window's place. -/
theorem read_win3 (t : Fin cfg0.N) (Z : S64x64.Idx → Elt Ideal .f32) (y : S64x64.Idx) (i : S64x64.Idx)
    (h0 : (i 0).val = (y 0).val) (h1 : (i 1).val = (y 1).val) :
    ((cfg0.win 3).blk t).view.read (Elt Ideal) Z y = Z i := by
  have hidx : ((cfg0.win 3).blk t).view.emb y = i := by
    obtain ⟨-, -, -, -, -, -, e0, e1, -, -, -, -, -, -⟩ := block_index t
    funext a
    apply Fin.ext
    match a with
    | ⟨0, _⟩ => show win0_3.index t 0 * 64 + 1 * (y 0).val = (i 0).val; rw [e0, h0]; clear e0 e1; omega
    | ⟨1, _⟩ => show win0_3.index t 1 * 64 + 1 * (y 1).val = (i 1).val; rw [e1, h1]; clear e0 e1; omega
  rw [View.read_apply, hidx]
  rfl

/-- The same for the array the region finds there, under a name. -/
theorem ws_block (c : Dev nD) (t : Fin cfg0.N) (X : S64x64.Idx → Elt Ideal .f32)
    (hX : (V m c (Pipeline.arrRef spec0 3) : S64x64.Idx → Elt Ideal .f32) = X) (y : S64x64.Idx) (i : S64x64.Idx)
    (h0 : (i 0).val = (y 0).val) (h1 : (i 1).val = (y 1).val) :
    (iblk m c 3 t : Vec Ideal S64x64 .f32) y = X i := by
  subst hX
  exact read_win3 t (V m c (Pipeline.arrRef spec0 3)) y i h0 h1

/-- The second weight matrix is staged whole at every point. Stated for any array in the window's place. -/
theorem read_win4 (t : Fin cfg0.N) (Z : S64x64.Idx → Elt Ideal .f32) (y : S64x64.Idx) (i : S64x64.Idx)
    (h0 : (i 0).val = (y 0).val) (h1 : (i 1).val = (y 1).val) :
    ((cfg0.win 4).blk t).view.read (Elt Ideal) Z y = Z i := by
  have hidx : ((cfg0.win 4).blk t).view.emb y = i := by
    obtain ⟨-, -, -, -, -, -, -, -, e0, e1, -, -, -, -⟩ := block_index t
    funext a
    apply Fin.ext
    match a with
    | ⟨0, _⟩ => show win0_4.index t 0 * 64 + 1 * (y 0).val = (i 0).val; rw [e0, h0]; clear e0 e1; omega
    | ⟨1, _⟩ => show win0_4.index t 1 * 64 + 1 * (y 1).val = (i 1).val; rw [e1, h1]; clear e0 e1; omega
  rw [View.read_apply, hidx]
  rfl

/-- The same for the array the region finds there, under a name. -/
theorem wn_block (c : Dev nD) (t : Fin cfg0.N) (X : S64x64.Idx → Elt Ideal .f32)
    (hX : (V m c (Pipeline.arrRef spec0 4) : S64x64.Idx → Elt Ideal .f32) = X) (y : S64x64.Idx) (i : S64x64.Idx)
    (h0 : (i 0).val = (y 0).val) (h1 : (i 1).val = (y 1).val) :
    (iblk m c 4 t : Vec Ideal S64x64 .f32) y = X i := by
  subst hX
  exact read_win4 t (V m c (Pipeline.arrRef spec0 4)) y i h0 h1

/-- The bias row is staged whole at every point. Stated for any array in the window's place. -/
theorem read_win5 (t : Fin cfg0.N) (Z : S1x64.Idx → Elt Ideal .f32) (y : S1x64.Idx) (i : S1x64.Idx)
    (h0 : (i 0).val = (y 0).val) (h1 : (i 1).val = (y 1).val) :
    ((cfg0.win 5).blk t).view.read (Elt Ideal) Z y = Z i := by
  have hidx : ((cfg0.win 5).blk t).view.emb y = i := by
    obtain ⟨-, -, -, -, -, -, -, -, -, -, e0, e1, -, -⟩ := block_index t
    funext a
    apply Fin.ext
    match a with
    | ⟨0, _⟩ => show win0_5.index t 0 * 1 + 1 * (y 0).val = (i 0).val; rw [e0, h0]; clear e0 e1; omega
    | ⟨1, _⟩ => show win0_5.index t 1 * 64 + 1 * (y 1).val = (i 1).val; rw [e1, h1]; clear e0 e1; omega
  rw [View.read_apply, hidx]
  rfl

/-- The same for the array the region finds there, under a name. -/
theorem brow_block (c : Dev nD) (t : Fin cfg0.N) (X : S1x64.Idx → Elt Ideal .f32)
    (hX : (V m c (Pipeline.arrRef spec0 5) : S1x64.Idx → Elt Ideal .f32) = X) (y : S1x64.Idx) (i : S1x64.Idx)
    (h0 : (i 0).val = (y 0).val) (h1 : (i 1).val = (y 1).val) :
    (iblk m c 5 t : Vec Ideal S1x64 .f32) y = X i := by
  subst hX
  exact read_win5 t (V m c (Pipeline.arrRef spec0 5)) y i h0 h1

/-! ## The arrays the windows stage, by name -/

/-- Window 0 stages the node features. -/
theorem arr_feat (c : Dev nD) : V m c (Pipeline.arrRef spec0 0) = V m c main_arg0 := rfl
/-- Window 1 stages the neighbour sums. -/
theorem arr_sums (c : Dev nD) : V m c (Pipeline.arrRef spec0 1) = V m c main_v9 := rfl
/-- Window 2 stages the degree column. -/
theorem arr_degc (c : Dev nD) : V m c (Pipeline.arrRef spec0 2) = V m c main_v14 := rfl
/-- Window 3 stages the first weight matrix. -/
theorem arr_ws (c : Dev nD) : V m c (Pipeline.arrRef spec0 3) = V m c main_arg3 := rfl
/-- Window 4 stages the second weight matrix. -/
theorem arr_wn (c : Dev nD) : V m c (Pipeline.arrRef spec0 4) = V m c main_arg4 := rfl
/-- Window 5 stages the bias row. -/
theorem arr_brow (c : Dev nD) : V m c (Pipeline.arrRef spec0 5) = V m c main_v15 := rfl

/-! ## What one point writes back -/

/-- What point t writes back is block t of the layer function of the six arrays the region finds (each under a name:
    features, neighbour sums, degree column, the two weight matrices, bias row), the degree read down the degree column and the
    bias along the bias row. -/
theorem flushed_layer (c : Dev nD) (t : Fin cfg0.N)
    (X A : S100000x64.Idx → Elt Ideal .f32) (Dc : S100000x1.Idx → Elt Ideal .f32)
    (W1 W2 : S64x64.Idx → Elt Ideal .f32) (Br : S1x64.Idx → Elt Ideal .f32)
    (hX : (V m c (Pipeline.arrRef spec0 0) : S100000x64.Idx → Elt Ideal .f32) = X)
    (hA : (V m c (Pipeline.arrRef spec0 1) : S100000x64.Idx → Elt Ideal .f32) = A)
    (hD : (V m c (Pipeline.arrRef spec0 2) : S100000x1.Idx → Elt Ideal .f32) = Dc)
    (hW1 : (V m c (Pipeline.arrRef spec0 3) : S64x64.Idx → Elt Ideal .f32) = W1)
    (hW2 : (V m c (Pipeline.arrRef spec0 4) : S64x64.Idx → Elt Ideal .f32) = W2)
    (hBr : (V m c (Pipeline.arrRef spec0 5) : S1x64.Idx → Elt Ideal .f32) = Br) :
    (dats m 0 c).flushed 6 t = ((cfg0.win 6).blk t).view.read (Elt Ideal)
      (Sage.layer X A (fun p => Dc (ix2 p (0 : Fin 1))) W1 W2 (fun q => Br (ix2 (0 : Fin 1) q))) := by
  rw [Cert.KernelIdeal.Value.flushed6]
  unfold out0_6
  rw [View.canon_unit_zero zero_off]
  simp only [View.ld_unit_zero (S := S10000x64) zero_off, View.ld_unit_zero (S := S10000x1) zero_off,
    View.ld_unit_zero (S := S64x64) zero_off, View.ld_unit_zero (S := S1x64) zero_off]
  funext j
  have hj0 : ((((cfg0.win 6).blk t).view.emb j) 0).val = 10000 * t.val + (j 0).val := by
    obtain ⟨-, -, -, -, -, -, -, -, -, -, -, -, e0, e1⟩ := block_index t
    show win0_6.index t 0 * 10000 + 1 * (j 0).val = _
    rw [e0]; clear e0 e1; omega
  have hj1 : ((((cfg0.win 6).blk t).view.emb j) 1).val = (j 1).val := by
    obtain ⟨-, -, -, -, -, -, -, -, -, -, -, -, e0, e1⟩ := block_index t
    show win0_6.index t 1 * 64 + 1 * (j 1).val = _
    rw [e1]; clear e0 e1; omega
  show k0_pay1 (F := Ideal) (iblk m c 1 t) (iblk m c 2 t) (iblk m c 0 t) (iblk m c 3 t) (iblk m c 4 t) (iblk m c 5 t) j
    = Sage.layer X A (fun p => Dc (ix2 p (0 : Fin 1))) W1 W2 (fun q => Br (ix2 (0 : Fin 1) q)) (((cfg0.win 6).blk t).view.emb j)
  refine (Body.pay_at (iblk m c 1 t) (iblk m c 2 t) (iblk m c 0 t) (iblk m c 3 t) (iblk m c 4 t) (iblk m c 5 t) j).trans ?_
  show _ = Sage.entry X A (fun p => Dc (ix2 p (0 : Fin 1))) W1 W2 (fun q => Br (ix2 (0 : Fin 1) q)) ⟨((((cfg0.win 6).blk t).view.emb j) 0).val, ((((cfg0.win 6).blk t).view.emb j) 0).isLt⟩ ⟨((((cfg0.win 6).blk t).view.emb j) 1).val, ((((cfg0.win 6).blk t).view.emb j) 1).isLt⟩
  unfold Sage.entry
  refine congrArg₂ (· + ·) (congrArg₂ (· + ·) ?_ ?_) ?_
  · exact Finset.sum_congr rfl fun k _ =>
      congrArg₂ (· * ·)
        (feat_block m c t X hX (ix2 (j 0) k) (ix2 ⟨((((cfg0.win 6).blk t).view.emb j) 0).val, ((((cfg0.win 6).blk t).view.emb j) 0).isLt⟩ k) hj0 rfl)
        (ws_block m c t W1 hW1 (ix2 (j 1) k) (ix2 ⟨((((cfg0.win 6).blk t).view.emb j) 1).val, ((((cfg0.win 6).blk t).view.emb j) 1).isLt⟩ k) hj1 rfl)
  · exact Finset.sum_congr rfl fun k _ =>
      congrArg₂ (· * ·)
        (congrArg₂ Ideal.div
          (sums_block m c t A hA (ix2 (j 0) k) (ix2 ⟨((((cfg0.win 6).blk t).view.emb j) 0).val, ((((cfg0.win 6).blk t).view.emb j) 0).isLt⟩ k) hj0 rfl)
          (congrArg (fun d => max d Sage.oneWord)
            (degc_block m c t Dc hD (ix2 (j 0) (0 : Fin 1)) (ix2 ⟨((((cfg0.win 6).blk t).view.emb j) 0).val, ((((cfg0.win 6).blk t).view.emb j) 0).isLt⟩ (0 : Fin 1)) hj0 rfl)))
        (wn_block m c t W2 hW2 (ix2 (j 1) k) (ix2 ⟨((((cfg0.win 6).blk t).view.emb j) 1).val, ((((cfg0.win 6).blk t).view.emb j) 1).isLt⟩ k) hj1 rfl)
  · exact brow_block m c t Br hBr (ix2 (0 : Fin 1) (j 1)) (ix2 (0 : Fin 1) ⟨((((cfg0.win 6).blk t).view.emb j) 1).val, ((((cfg0.win 6).blk t).view.emb j) 1).isLt⟩) rfl hj1

/-! ## The whole array -/

/-- The result array: the layer function of the arrays the region finds. -/
def result (c : Dev nD) : S100000x64.Idx → EReal :=
  Sage.layer (V m c main_arg0 : S100000x64.Idx → Elt Ideal .f32) (V m c main_v9 : S100000x64.Idx → Elt Ideal .f32)
    (fun p => (V m c main_v14 : S100000x1.Idx → Elt Ideal .f32) (ix2 p (0 : Fin 1)))
    (V m c main_arg3 : S64x64.Idx → Elt Ideal .f32) (V m c main_arg4 : S64x64.Idx → Elt Ideal .f32)
    (fun q => (V m c main_v15 : S1x64.Idx → Elt Ideal .f32) (ix2 (0 : Fin 1) q))

/-- What point t writes back is block t of the result array. -/
theorem flushed_eq (c : Dev nD) (t : Fin cfg0.N) :
    (dats m 0 c).flushed 6 t = ((cfg0.win 6).blk t).view.read (Elt Ideal) (result m c) := by
  unfold result
  exact flushed_layer m c t (V m c main_arg0) (V m c main_v9) (V m c main_v14) (V m c main_arg3) (V m c main_arg4)
    (V m c main_v15) (arr_feat m c) (arr_sums m c) (arr_degc m c) (arr_ws m c) (arr_wn m c) (arr_brow m c)

/-- An index of the result array is in point t's block iff each coordinate is in the block's range on its axis. -/
theorem mem_block (t : Fin cfg0.N) (i : S100000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v16).slice (win0_6.rect t)).set ↔ _
  rw [View.set_slice_whole, Rect.mem_set_unit]
  exact Iff.rfl

/-- The ten row blocks tile the array: row p is in the block of point p / 10000. -/
theorem covered (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have ht : (i 0).val / 10000 < cfg0.N := by
    show _ < grid0.N
    rw [N_0]; omega
  refine ⟨⟨(i 0).val / 10000, ht⟩, flush0_6 _, ?_⟩
  obtain ⟨-, -, -, -, -, -, -, -, -, -, -, -, e0, e1⟩ := block_index ⟨(i 0).val / 10000, ht⟩
  rw [mem_block]
  intro a
  match a with
  | ⟨0, _⟩ =>
    show win0_6.index ⟨(i 0).val / 10000, ht⟩ 0 * 10000 ≤ (i 0).val
      ∧ (i 0).val < win0_6.index ⟨(i 0).val / 10000, ht⟩ 0 * 10000 + 10000
    rw [e0]
    show (i 0).val / 10000 * 10000 ≤ (i 0).val ∧ (i 0).val < (i 0).val / 10000 * 10000 + 10000
    clear e0 e1
    omega
  | ⟨1, _⟩ =>
    show win0_6.index ⟨(i 0).val / 10000, ht⟩ 1 * 64 ≤ (i 1).val
      ∧ (i 1).val < win0_6.index ⟨(i 0).val / 10000, ht⟩ 1 * 64 + 64
    rw [e1]
    clear e0 e1
    omega

/-- After the run the result array holds the layer function at every index. -/
theorem final (c : Dev nD) : (dats m 0 c).arrAt 6 cfg0.N = result m c :=
  (dats m 0 c).arrAt_eq_of_cover 6 (result m c) (fun t _ => flushed_eq m c t) covered

/-- The kernel's run, read: the result array at the layer function of what the region finds, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Blocks

end
-- ==== Proof.Prefix.lean ====
/-
  What the kernel's region finds in the three arrays that host operations wrote before it.

  Before the region the program gathers the source nodes' feature rows along the edge list (a negative source index
  first moved up by the number of nodes), adds them into a zero array at the destination nodes (the neighbour sums),
  adds a one per edge into a zero vector at the destination nodes (the in-degrees) and recasts the degrees as a column,
  and recasts the bias vector as a row. The reference program opens with the very same operations on the same
  arguments, so the region's neighbour sums and degrees are the reference's own stages, word for word.
-/
import proofs.«135539_j64226940944915_2_alg».proof.Proof.Gen.KernelIdeal.Frame
import proofs.«135539_j64226940944915_2_alg».proof.Proof.Gen.ReferenceIdeal.Read
import Idealize.ShloMosaic.Lib.StableHlo.Run

noncomputable section

namespace Cert.KernelIdeal.Prefix

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The neighbour sums the region finds are the reference's scatter-add stage of the arguments. -/
theorem V_sums (c : Dev nD) :
    (V m c main_v9 : S100000x64.Idx → Elt F .f32)
      = Cert.ReferenceIdeal.Read.val_main_v9 (F := F) (m ((c : Thread nD τ).loc main_arg0)) (m ((c : Thread nD τ).loc main_arg1)) (m ((c : Thread nD τ).loc main_arg2)) := by
  dsimp only [V, hostOps0]
  after_results
  rfl

/-- The degree column the region finds is the reference's degree stage, recast as a column. -/
theorem V_degc (c : Dev nD) :
    (V m c main_v14 : S100000x1.Idx → Elt F .f32)
      = shapeCast S100000x1 (Cert.ReferenceIdeal.Read.val_main_v13 (F := F) (m ((c : Thread nD τ).loc main_arg2))) shapeCasts_S100000_S100000x1 := by
  dsimp only [V, hostOps0]
  after_results
  rfl

/-- The bias row the region finds is the bias argument recast as a row. -/
theorem V_brow (c : Dev nD) :
    (V m c main_v15 : S1x64.Idx → Elt F .f32)
      = shapeCast S1x64 ((m ((c : Thread nD τ).loc main_arg5)) : S64.Idx → Elt F .f32) shapeCasts_S64_S1x64 := by
  dsimp only [V, hostOps0]
  after_results
  rfl

end Cert.KernelIdeal.Prefix

end
-- ==== Proof.RefSide.lean ====
/-
  The reference program's result, read operation by operation at exact arithmetic, is the layer function of the node
  features, of the neighbour sums and the in-degrees it computes from the edge lists, of the two weight matrices and
  of the bias.

  The reference divides the neighbour sums by the degrees raised to 1 and spread over the features; multiplies the node
  features by the transposed first weight matrix and the means by the transposed second one (each a sum over the
  contracted coordinate of row-entry times column-entry, and the transposed matrix at (k, q) is the matrix at (q, k));
  adds the two products and then the bias spread over the nodes. Entry by entry that is the layer's entry, the degree
  read from the degree vector and the bias from the bias vector.
-/
import proofs.«135539_j64226940944915_2_alg».proof.Proof.Gen.ReferenceIdeal.Read
import proofs.«135539_j64226940944915_2_alg».proof.Proof.Spec
import Idealize.ShloMosaic.PureOps.Ideal.Laws
import Idealize.ShloMosaic.Lib.ValueIdx

noncomputable section

namespace Cert.ReferenceIdeal.RefSide

open Cert.ReferenceIdeal Cert.ReferenceIdeal.Read Idealize.ShloMosaic Idealize.ShloMosaic.ValueIdx

/-- The node's own features against the first weight matrix: at (p, q), the sum over k of x(p, k) · ws(q, k). -/
theorem self_term (x0 : (⟨S100000x64, .f32⟩ : BufTy).Contents (Elt Ideal)) (x3 : (⟨S64x64, .f32⟩ : BufTy).Contents (Elt Ideal)) (p : Fin 100000) (q : Fin 64) :
    val_main_v20 (F := Ideal) x0 x3 (ix2 p q) = ∑ k : Fin 64, x0 (ix2 p k) * x3 (ix2 q k) := by
  rw [val_main_v20_apply]
  refine Finset.sum_congr rfl fun k _ => ?_
  have e1 : lidx_main_v20 (ix2 p q) k = ix2 p k := funext fun a => Fin.ext (by match a with | ⟨0, _⟩ => rfl | ⟨1, _⟩ => rfl)
  have e2 : idx_main_v19 (ridx_main_v20 (ix2 p q) k) = ix2 q k := funext fun a => Fin.ext (by match a with | ⟨0, _⟩ => rfl | ⟨1, _⟩ => rfl)
  rw [val_main_v19_apply, e1, e2]

/-- The mean of the neighbours' features: at (p, k), the neighbour sum over the node's degree raised to 1. -/
theorem mean_at (x0 : (⟨S100000x64, .f32⟩ : BufTy).Contents (Elt Ideal)) (x1 x2 : (⟨S1250000, .i32⟩ : BufTy).Contents (Elt Ideal)) (p : Fin 100000) (k : Fin 64) :
    val_main_v18 (F := Ideal) x0 x1 x2 (ix2 p k)
      = Ideal.div (val_main_v9 (F := Ideal) x0 x1 x2 (ix2 p k)) (max (val_main_v13 (F := Ideal) x2 (ix1 p)) Sage.oneWord) := by
  have e : idx_main_v16 (idx_main_v17 (ix2 p k)) = ix1 p := funext fun a => Fin.ext (by match a with | ⟨0, _⟩ => rfl)
  rw [val_main_v18_apply, val_main_v17_apply, val_main_v16_apply, val_main_v15_apply, val_main_v14_apply,
    val_main_cst_3_apply, e]
  rfl

/-- The means against the second weight matrix: at (p, q), the sum over k of mean(p, k) · wn(q, k). -/
theorem neigh_term (x0 : (⟨S100000x64, .f32⟩ : BufTy).Contents (Elt Ideal)) (x1 x2 : (⟨S1250000, .i32⟩ : BufTy).Contents (Elt Ideal)) (x4 : (⟨S64x64, .f32⟩ : BufTy).Contents (Elt Ideal)) (p : Fin 100000) (q : Fin 64) :
    val_main_v22 (F := Ideal) x0 x1 x2 x4 (ix2 p q)
      = ∑ k : Fin 64, Ideal.div (val_main_v9 (F := Ideal) x0 x1 x2 (ix2 p k)) (max (val_main_v13 (F := Ideal) x2 (ix1 p)) Sage.oneWord)
          * x4 (ix2 q k) := by
  rw [val_main_v22_apply]
  refine Finset.sum_congr rfl fun k _ => ?_
  have e1 : lidx_main_v22 (ix2 p q) k = ix2 p k := funext fun a => Fin.ext (by match a with | ⟨0, _⟩ => rfl | ⟨1, _⟩ => rfl)
  have e2 : idx_main_v21 (ridx_main_v22 (ix2 p q) k) = ix2 q k := funext fun a => Fin.ext (by match a with | ⟨0, _⟩ => rfl | ⟨1, _⟩ => rfl)
  rw [val_main_v21_apply, e1, e2, mean_at]

/-- The bias spread over the nodes: at (p, q), the bias at q. -/
theorem bias_term (x5 : (⟨S64, .f32⟩ : BufTy).Contents (Elt Ideal)) (p : Fin 100000) (q : Fin 64) :
    val_main_v25 (F := Ideal) x5 (ix2 p q) = x5 (ix1 q) := by
  rw [val_main_v25_apply, val_main_v24_apply]
  exact congrArg x5 (funext fun a => Fin.ext (by match a with | ⟨0, _⟩ => rfl))

/-- The reference's result is the layer function, with the neighbour sums and the degrees at the reference's own stages. -/
theorem result_eq (x0 : (⟨S100000x64, .f32⟩ : BufTy).Contents (Elt Ideal)) (x1 x2 : (⟨S1250000, .i32⟩ : BufTy).Contents (Elt Ideal)) (x3 x4 : (⟨S64x64, .f32⟩ : BufTy).Contents (Elt Ideal)) (x5 : (⟨S64, .f32⟩ : BufTy).Contents (Elt Ideal)) :
    val_main_v26 (F := Ideal) x0 x1 x2 x3 x4 x5
      = Sage.layer x0 (val_main_v9 (F := Ideal) x0 x1 x2) (fun p => val_main_v13 (F := Ideal) x2 (ix1 p)) x3 x4 (fun q => x5 (ix1 q)) := by
  funext i
  obtain ⟨p, q, rfl⟩ : ∃ (p : Fin 100000) (q : Fin 64), i = ix2 p q := ⟨i 0, i 1, eq_ix2 i⟩
  rw [Sage.layer_apply, val_main_v26_apply, val_main_v23_apply, self_term, neigh_term, bias_term]
  rfl

end Cert.ReferenceIdeal.RefSide

end
-- ==== Proof.Bridge.lean ====
/-
  The kernel's result array is the reference's result.

  After the kernel's run the result array is the layer function of what the region finds: the node features and the
  weight matrices as launched, the neighbour sums and the degree column the host operations wrote, the bias recast
  as a row. Those neighbour sums and degrees are the reference's own stages of the same arguments; the degree column at
  (p, 0) is the degree vector at p and the bias row at (0, q) is the bias vector at q. So the array is the layer
  function of exactly the arrays the reference's result is the layer function of.
-/
import proofs.«135539_j64226940944915_2_alg».proof.Proof.Blocks
import proofs.«135539_j64226940944915_2_alg».proof.Proof.Prefix
import proofs.«135539_j64226940944915_2_alg».proof.Proof.RefSide
import proofs.«135539_j64226940944915_2_alg».proof.Proof.LibDense
import Idealize.ShloMosaic.Lib.ValueLayout

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The kernel's result array is the reference's last stage of the kernel's own arguments. -/
theorem result_eq (c : Dev nD) :
    Blocks.result m c
      = Cert.ReferenceIdeal.Read.val_main_v26 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5)) := by
  have hd : (fun p : Fin 100000 => (V m c main_v14 : S100000x1.Idx → Elt Ideal .f32) (ix2 p (0 : Fin 1)))
      = fun p => Cert.ReferenceIdeal.Read.val_main_v13 (F := Ideal) (m ((c : Thread nD τ).loc main_arg2)) (ix1 p) :=
    funext fun p => by
      rw [Prefix.V_degc]
      exact Cert.LibDense.shapeCast_a_a1_apply _ _ p 0
  have hb : (fun q : Fin 64 => (V m c main_v15 : S1x64.Idx → Elt Ideal .f32) (ix2 (0 : Fin 1) q))
      = fun q => ((m ((c : Thread nD τ).loc main_arg5)) : S64.Idx → Elt Ideal .f32) (ix1 q) :=
    funext fun q => by
      rw [Prefix.V_brow]
      exact shapeCast_a_1a_apply _ _ 0 q
  rw [Cert.ReferenceIdeal.RefSide.result_eq]
  unfold Blocks.result
  rw [hd, hb, Prefix.V_sums, V_main_arg0, V_main_arg3, V_main_arg4]

end Cert.KernelIdeal.Bridge

end
-- ==== Proof.lean ====
/-
  The certificate of one graph-convolution layer with mean aggregation, kernel against reference.

  Both programs gather the source nodes' features along the edge list, add them up at the destination nodes and count
  each node's incoming edges. The kernel then runs, over ten blocks of 10000 nodes, a body that divides the neighbour
  sums by the degree raised to 1, multiplies the node features and the means by the two transposed weight matrices,
  adds the products and adds the bias; the reference does the same on the whole arrays. At exact arithmetic both end
  with, at node p and feature q,

      ( Σ_k x(p, k) · ws(q, k)  +  Σ_k (agg(p, k) / max(deg(p), 1)) · wn(q, k) )  +  b(q),

  the same sums in the same order, so no law beyond reading each operation at an index is needed and the
  precondition is not used. The three frames are the generated runs; the idealization rewrote nothing.
-/
import proofs.«135539_j64226940944915_2_alg».proof.Defs
import proofs.«135539_j64226940944915_2_alg».proof.Proof.Gen.Kernel
import proofs.«135539_j64226940944915_2_alg».proof.Proof.Gen.Kernel.Skeleton
import proofs.«135539_j64226940944915_2_alg».proof.Proof.Gen.Kernel.Launch
import proofs.«135539_j64226940944915_2_alg».proof.Proof.Gen.Kernel.Points
import proofs.«135539_j64226940944915_2_alg».proof.Proof.Gen.Kernel.Frame
import proofs.«135539_j64226940944915_2_alg».proof.Proof.Gen.KernelIdeal
import proofs.«135539_j64226940944915_2_alg».proof.Proof.Gen.KernelIdeal.Skeleton
import proofs.«135539_j64226940944915_2_alg».proof.Proof.Gen.KernelIdeal.Launch
import proofs.«135539_j64226940944915_2_alg».proof.Proof.Gen.KernelIdeal.Points
import proofs.«135539_j64226940944915_2_alg».proof.Proof.Gen.KernelIdeal.Frame
import proofs.«135539_j64226940944915_2_alg».proof.Proof.Gen.KernelIdeal.Value
import proofs.«135539_j64226940944915_2_alg».proof.Proof.Gen.ReferenceIdeal.Run
import proofs.«135539_j64226940944915_2_alg».proof.Proof.Gen.ReferenceIdeal.Read
import proofs.«135539_j64226940944915_2_alg».proof.Proof.Gen.ReferenceIdeal
import proofs.«135539_j64226940944915_2_alg».proof.Proof.Gen.Pre_finite_inputs
import proofs.«135539_j64226940944915_2_alg».proof.Proof.Bridge
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at exact arithmetic. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer function of the same arrays. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono
    (fun _ h c => ⟨(h c).1.trans ((Cert.ReferenceIdeal.Read.val_main_v26_eq _ _ _ _ _ _).trans ?_), (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.KernelIdeal.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
